-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S16384x4096 : Shape := ⟨2, ![16384, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x1024_S256 : S256x1024.Reduces [1] S256
  shapeCasts_S256_S256x1 : S256.ShapeCasts S256x1
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LibPairDist.lean ====
/-
  Pairwise squared Euclidean distances through the product decomposition.  For a matrix `a` of `n` rows and a
  matrix `b` of `c` rows, both with `d` columns, the entry `(r, j)` of the result is
      ‖a_r‖² + ‖b_j‖² − 2 · ⟨a_r, b_j⟩,
  with ‖a_r‖² = ∑ₖ a(r,k)·a(r,k) and ⟨a_r, b_j⟩ = ∑ₖ a(r,k)·b(j,k), every operation the extended reals' own and the
  factor 2 the number the word 0x40000000 denotes (never evaluated: both programs carry the same word).  The grouping
  `(‖a_r‖² + ‖b_j‖²) − 2·⟨a_r, b_j⟩` is the one both programs use, so no law of arithmetic beyond `0 + s = s` is
  needed to compare them, and none that would ask the entries to be finite.
  Also here: a one-row matrix repeated down the rows (a vector broadcast `[1, m] → [n, m]`) read at an entry, the
  layout step by which a row of squared lengths meets the table.  General in the extents; nothing depends on a program.
-/
import Idealize.ShloMosaic.Lib.Pipeline.Value
import Idealize.ShloMosaic.Lib.ValueIdx
import Idealize.ShloMosaic.PureOps.Ideal.Laws

noncomputable section

open scoped BigOperators

namespace Cert.PairDist

open Idealize.ShloMosaic Idealize.ShloMosaic.ValueIdx

/-- The squared length of row `r`: the sum over the columns of the entry times itself. -/
def rowSq {n d : Nat} (a : (⟨2, ![n, d]⟩ : Shape).Idx → EReal) (r : Fin n) : EReal :=
  ∑ k : Fin d, a (ix2 r k) * a (ix2 r k)

/-- The inner product of row `r` of `a` with row `j` of `b`. -/
def rowDot {n c d : Nat} (a : (⟨2, ![n, d]⟩ : Shape).Idx → EReal) (b : (⟨2, ![c, d]⟩ : Shape).Idx → EReal)
    (r : Fin n) (j : Fin c) : EReal :=
  ∑ k : Fin d, a (ix2 r k) * b (ix2 j k)

/-- The factor of the cross term: what the f32 word of 2.0 denotes. -/
def two : EReal := Ideal.ofBits .f32 0x40000000#32

/-- The distance entry for row `r` of `a` and row `j` of `b`. -/
def distAt {n c d : Nat} (a : (⟨2, ![n, d]⟩ : Shape).Idx → EReal) (b : (⟨2, ![c, d]⟩ : Shape).Idx → EReal)
    (r : Fin n) (j : Fin c) : EReal :=
  (rowSq a r + rowSq b j) - two * rowDot a b r j

/-- The whole `n × c` table of distances. -/
def dist {n c d : Nat} (a : (⟨2, ![n, d]⟩ : Shape).Idx → EReal) (b : (⟨2, ![c, d]⟩ : Shape).Idx → EReal) :
    (⟨2, ![n, c]⟩ : Shape).Idx → EReal :=
  fun i => distAt a b (i 0) (i 1)

/-- The table at the index with coordinates `(r, j)`. -/
theorem dist_apply {n c d : Nat} (a : (⟨2, ![n, d]⟩ : Shape).Idx → EReal) (b : (⟨2, ![c, d]⟩ : Shape).Idx → EReal)
    (r : Fin n) (j : Fin c) : dist a b (ix2 r j) = distAt a b r j := rfl

/-- A block of `R` consecutive rows of `a`, starting at row `R·t`: the distance entry of the block's row `r` is the
    entry of row `R·t + r` of the whole matrix, the second matrix kept whole. -/
theorem distAt_rows {n c d R : Nat} (a : (⟨2, ![n, d]⟩ : Shape).Idx → EReal) (b : (⟨2, ![c, d]⟩ : Shape).Idx → EReal)
    (a' : (⟨2, ![R, d]⟩ : Shape).Idx → EReal) (r : Fin R) (r' : Fin n)
    (h : ∀ k : Fin d, a' (ix2 r k) = a (ix2 r' k)) (j : Fin c) : distAt a' b r j = distAt a b r' j := by
  unfold distAt rowSq rowDot
  simp only [h]

/-- A `1 × m` matrix repeated to `n × m` (a vector broadcast): entry `(r, j)` is entry `(0, j)`. -/
theorem broadcastTo_row {α : Type} {n m : Nat} (v : (⟨2, ![1, m]⟩ : Shape).Idx → α)
    (h : (⟨2, ![1, m]⟩ : Shape).Broadcasts ⟨2, ![n, m]⟩) (r : Fin n) (j : Fin m) :
    broadcastTo ⟨2, ![n, m]⟩ v h (ix2 r j) = v (ix2 0 j) :=
  broadcastTo_apply v h (ix2 r j) (ix2 0 j) (fun a => by
    match a with
    | ⟨0, _⟩ => exact (if_pos rfl).symm
    | ⟨1, _⟩ =>
      show j.val = if m = 1 then 0 else j.val
      have := j.isLt
      split <;> omega)

end Cert.PairDist

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibDotSumT.lean ====
/-
  A matrix product against a TRANSPOSED right factor, read at an entry.  For dimension numbers `d` of a product
  `[A,K] × [N,K] → [A,N]` (one contracted axis: the columns of the left factor against the columns of the right
  one — "x · Wᵀ" —, no batch axis) the sum over the contraction index of the factors' products, at the entry
  `(p, j)`, is the textbook sum `∑ k, l (p, k) · r (j, k)` over `Fin K`.  The four coordinate facts
  `hl0 … hr1` say what the dimension numbers mean; they are proved once per record, at literal extents.  A
  `tpu.matmul` into a zero accumulator and the host's `dot_general` with these dimension numbers are that sum on
  the extended reals.
-/
import Idealize.ShloMosaic.Lib.ValueIdx
import Idealize.ShloMosaic.PureOps.Ideal.Laws

noncomputable section

namespace Cert.DotSumT

open Idealize.ShloMosaic Idealize.ShloMosaic.ValueIdx

/-- The contraction sum of a product against a transposed right factor at the entry `(p, j)`, over `Fin K`. -/
theorem contr_sum_T {A K N : ℕ} (d : DotDims ⟨2, ![A, K]⟩ ⟨2, ![N, K]⟩ ⟨2, ![A, N]⟩)
    (hr : d.contr.rank = 1) (hs : d.contr.size ⟨0, by omega⟩ = K)
    (hl0 : ∀ (i : (⟨2, ![A, N]⟩ : Shape).Idx) (q : d.contr.Idx), (d.lhsIdx i q 0).val = (i 0).val)
    (hl1 : ∀ (i : (⟨2, ![A, N]⟩ : Shape).Idx) (q : d.contr.Idx), (d.lhsIdx i q 1).val = (q ⟨0, by omega⟩).val)
    (hr0 : ∀ (i : (⟨2, ![A, N]⟩ : Shape).Idx) (q : d.contr.Idx), (d.rhsIdx i q 0).val = (i 1).val)
    (hr1 : ∀ (i : (⟨2, ![A, N]⟩ : Shape).Idx) (q : d.contr.Idx), (d.rhsIdx i q 1).val = (q ⟨0, by omega⟩).val)
    (l : (⟨2, ![A, K]⟩ : Shape).Idx → EReal) (r : (⟨2, ![N, K]⟩ : Shape).Idx → EReal) (p : Fin A) (j : Fin N) :
    ∑ q : d.contr.Idx, l (d.lhsIdx (ix2 p j) q) * r (d.rhsIdx (ix2 p j) q) = ∑ k : Fin K, l (ix2 p k) * r (ix2 j k) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 j k := funext fun a => Fin.ext (by
    match a with
    | ⟨0, _⟩ => exact hr0 _ _
    | ⟨1, _⟩ => exact (hr1 _ _).trans hk)
  rw [el, er]

end Cert.DotSumT

end
-- ==== Proof.Body.lean ====
/-
  What the kernel body stores, read at one entry.  The body loads a block `x0` of 256 rows of `x`, the whole
  prototype matrix `x1` and the one-row matrix `x2` of the prototypes' squared lengths, and stores, at row `r` and
  column `j` of its 256 × 4096 block,
      (‖x0_r‖² + x2(0, j)) − 2 · ⟨x0_r, x1_j⟩ :
  the row sum of the squares (a lane reduction from zero, turned into a column and repeated along the row), the row
  `x2` repeated down the rows, and the matrix product of `x0` with the transposed `x1` into a zero accumulator, which
  on the extended reals is the plain sum over the 1024 columns (a change of number format is the identity there).
-/
import proofs.«111275_j34411277975719_2_alg».proof.Proof.Gen.KernelIdeal.Skeleton
import proofs.«111275_j34411277975719_2_alg».proof.Proof.LibPairDist
import proofs.«111275_j34411277975719_2_alg».proof.Proof.LibColumns
import proofs.«111275_j34411277975719_2_alg».proof.Proof.LibDotSumT
import Idealize.ShloMosaic.Lib.Pipeline.Value
import Idealize.ShloMosaic.Lib.ValueIdx
import Idealize.ShloMosaic.PureOps.Ideal.Laws

noncomputable section

open scoped BigOperators

namespace Cert.PairDist.Body

open Cert.KernelIdeal Cert.KernelIdeal.Gen Idealize.ShloMosaic Idealize.ShloMosaic.ValueIdx

/-! ## The product's dimension numbers: rows of the left factor against rows of the right one -/

theorem lhs0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
theorem lhs1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
theorem rhs1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- The matrix product into the zero accumulator at `(r, j)`: the inner product of row `r` with row `j`. -/
theorem cross_apply (a : FVec Ideal S256x1024 .bf16) (b : FVec Ideal S4096x1024 .bf16) (r : Fin 256) (j : Fin 4096) :
    matmul dot_S256x1024_S4096x1024_S256x4096_1_1_0_0_n_n none a b (constant S256x4096 .f32 0x00000000#32) (ix2 r j) = rowDot a b r j :=
  (Ideal.matmul_constant_zero_apply dot_S256x1024_S4096x1024_S256x4096_1_1_0_0_n_n none a b (ix2 r j)).trans
    (Cert.DotSumT.contr_sum_T dot_S256x1024_S4096x1024_S256x4096_1_1_0_0_n_n rfl rfl lhs0 lhs1 rhs0 rhs1 a b r j)

/-- The lane sum of the squares, turned into a column and repeated along the row, at `(r, j)`: the squared length of row `r`. -/
theorem sq_spread (x0 : FVec Ideal S256x1024 .f32) (hR : S256x1024.Reduces [1] S256) (hφ : FKind.Formats .f32)
    (hacc : (0x00000000#32 : BitVec 32) = FKind.add.neutral .f32 hφ) (hC : S256.ShapeCasts S256x1)
    (hB : S256x1.Broadcasts S256x4096) (r : Fin 256) (j : Fin 4096) :
    broadcastTo S256x4096 (shapeCast S256x1 (multiReduction .add [1] S256 (mulf x0 x0) 0x00000000#32 hR hφ hacc) hC) hB (ix2 r j)
      = rowSq x0 r :=
  (Cert.LibColumns.broadcastTo_col _ hB r j).trans
    ((Cert.LibColumns.shapeCast_vec_col _ hC r).trans
      (Cert.LibColumns.multiReduction_rows (mulf x0 x0) hR hφ hacc r))

/-- THE STORED VALUE at row `r`, column `j` of the block. -/
theorem pay_apply (x0 : Vec Ideal S256x1024 .f32) (x1 : Vec Ideal S4096x1024 .bf16) (x2 : Vec Ideal S1x4096 .f32)
    (r : Fin 256) (j : Fin 4096) :
    k0_pay1 (F := Ideal) x0 x1 x2 (ix2 r j) = (rowSq x0 r + x2 (ix2 0 j)) - two * rowDot x0 x1 r j := by
  unfold k0_pay1
  simp only [shapeCast_self, subf_apply, addf_apply, mulf_apply, broadcast_apply]
  exact congrArg₂ (fun a b : EReal => a - b)
    (congrArg₂ (fun a b : EReal => a + b) (sq_spread x0 _ _ _ _ _ r j) (broadcastTo_row x2 _ r j))
    (congrArg (fun a : EReal => two * a) (cross_apply _ x1 r j))

end Cert.PairDist.Body

end
-- ==== Proof.Prefix.lean ====
/-
  What the host prepares before the launch, read at an entry.  The kernel's third operand is the one-row matrix of
  the prototypes' squared lengths: the host squares the prototype matrix `p`, sums each row from zero, turns the
  vector of 4096 sums into a column and transposes the column into a row.  At `(0, j)` that row holds
  ‖p_j‖² = ∑ₖ p(j,k)·p(j,k): the transpose reads the column at `(j, 0)`, the column is entry `j` of the vector, the
  vector is the initial value — the number 0 — plus the row's sum.
-/
import proofs.«111275_j34411277975719_2_alg».proof.Proof.Gen.KernelIdeal
import proofs.«111275_j34411277975719_2_alg».proof.Proof.LibPairDist
import proofs.«111275_j34411277975719_2_alg».proof.Proof.LibColumns
import Idealize.ShloMosaic.Lib.Pipeline.Value
import Idealize.ShloMosaic.Lib.ValueIdx
import Idealize.ShloMosaic.PureOps.Ideal.Laws

noncomputable section

open scoped BigOperators

namespace Cert.PairDist.Prefix

open Cert.KernelIdeal Idealize.ShloMosaic Idealize.ShloMosaic.ValueIdx

/-- The row of squared lengths at `(0, j)`. -/
theorem sqRow_apply (p : FVec Ideal S4096x1024 .f32) (hR : S4096x1024.ReducesTo [1] S4096) (hS : 0 < S_.numel)
    (hB : S4096.BroadcastsInDim S4096x1 (![0] : Fin 1 → Fin S4096x1.rank)) (hT : S4096x1.Transposes [1, 0] S1x4096)
    (j : Fin 4096) :
    transpose S1x4096 [1, 0]
        (broadcastInDim S4096x1 ![0] hB (Host.reduceAdd (F := Ideal) (mulf p p) (constant (F := Ideal) S_ .f32 0x00000000#32) hR hS))
        hT (ix2 0 j)
      = rowSq p j := by
  refine (transpose_apply [1, 0] _ hT (ix2 0 j) (ix2 j 0) (fun b => by
    match b with
    | ⟨0, _⟩ => rfl
    | ⟨1, _⟩ => rfl)).trans ?_
  refine (Cert.LibColumns.broadcastInDim_vec_col ![0] rfl hB _ j).trans ?_
  refine (Cert.LibColumns.hostReduceAdd_rows (mulf p p) _ hR hS (by decide) j).trans ?_
  show Ideal.ofBits .f32 0x00000000#32 + _ = _
  rw [Ideal.ofBits_zero_f32, zero_add]
  rfl

end Cert.PairDist.Prefix

end
-- ==== Proof.Blocks.lean ====
/-
  From the blocks to the whole table.  The grid has 64 points; point `t` is handed rows `256·t … 256·t + 255` of `x`,
  the whole prototype matrix (as the host re-formatted it, which on the extended reals is the matrix itself) and the
  whole row of the prototypes' squared lengths, and writes back rows `256·t … 256·t + 255` of the result.  By the
  body's stored value at an entry, what point `t` writes back is block `t` of the table of distances of the two
  arguments; every row lies in the block of the point `row / 256`, so after the run the result array is that table.
-/
import proofs.«111275_j34411277975719_2_alg».proof.Proof.Gen.KernelIdeal.Value
import proofs.«111275_j34411277975719_2_alg».proof.Proof.Body
import proofs.«111275_j34411277975719_2_alg».proof.Proof.Prefix
import Idealize.ShloMosaic.Lib.Pipeline.Value
import Idealize.ShloMosaic.Lib.StableHlo.Run
import Idealize.ShloMosaic.Lib.Tactic

noncomputable section

open scoped BigOperators

namespace Cert.PairDist.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the region finds in the two arrays the host wrote -/

/-- The re-formatted prototype matrix is the prototype matrix: narrowing a number's format is the identity. -/
theorem V_protos (c : Dev nD) :
    (V m c main_v0 : S4096x1024.Idx → EReal) = (m ((c : Thread nD τ).loc main_arg1) : S4096x1024.Idx → EReal) := by
  dsimp only [Gen.V, Gen.hostOps0]
  after_results
  rfl

/-- The row of squared lengths, as the host's operations of the prototype matrix. -/
theorem V_sqRow (c : Dev nD) :
    (V m c main_v4 : S1x4096.Idx → EReal)
      = transpose S1x4096 [1, 0]
          (broadcastInDim S4096x1 ![0] bcast_S4096_S4096x1_0
            (Host.reduceAdd (F := Ideal) (mulf (m ((c : Thread nD τ).loc main_arg1)) (m ((c : Thread nD τ).loc main_arg1)))
              (constant (F := Ideal) S_ .f32 0x00000000#32) reducesTo_S4096x1024_S4096_d1 h_S_))
          transposes_S4096x1_S1x4096_1_0 := by
  dsimp only [Gen.V, Gen.hostOps0]
  after_results

/-! ## The index maps, decided over the 64 points -/

/-- Rows of `x` and of the result move with the point; the prototypes and their squared lengths stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at a point, read at an entry -/

/-- Row `r` of the block of `x` at point `t` is row `256·t + r` of `x`. -/
theorem xblk_apply (c : Dev nD) (t : Fin cfg0.N) (r : Fin 256) (k : Fin 1024) (r' : Fin 16384)
    (hr : r'.val = 256 * t.val + r.val) :
    (iblk m c 0 t : Vec Ideal S256x1024 .f32) (ix2 r k)
      = (m ((c : Thread nD τ).loc main_arg0) : S16384x1024.Idx → EReal) (ix2 r' k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * r.val = r'.val; rw [e0, hr]; omega
  | ⟨1, _⟩ => show win0_0.index t (1 : Fin 2) * 1024 + 1 * k.val = k.val; rw [e1]; omega

/-- The prototype block at any point is the whole prototype matrix. -/
theorem pblk_apply (c : Dev nD) (t : Fin cfg0.N) (j : Fin 4096) (k : Fin 1024) :
    (iblk m c 1 t : Vec Ideal S4096x1024 .bf16) (ix2 j k)
      = (m ((c : Thread nD τ).loc main_arg1) : S4096x1024.Idx → EReal) (ix2 j k) := by
  obtain ⟨-, -, e2, e3, -⟩ := idx_facts t
  unfold iblk
  rw [View.read_apply]
  show (V m c main_v0 : S4096x1024.Idx → EReal) _ = _
  rw [V_protos]
  refine congrArg _ (funext fun a => Fin.ext ?_)
  match a with
  | ⟨0, _⟩ => show win0_1.index t (0 : Fin 2) * 4096 + 1 * j.val = j.val; rw [e2]; omega
  | ⟨1, _⟩ => show win0_1.index t (1 : Fin 2) * 1024 + 1 * k.val = k.val; rw [e3]; omega

/-- The block of squared lengths at any point holds ‖p_j‖² at `(0, j)`. -/
theorem sqblk_apply (c : Dev nD) (t : Fin cfg0.N) (j : Fin 4096) :
    (iblk m c 2 t : Vec Ideal S1x4096 .f32) (ix2 0 j)
      = rowSq (m ((c : Thread nD τ).loc main_arg1) : S4096x1024.Idx → EReal) j := by
  obtain ⟨-, -, -, -, e4, e5, -⟩ := idx_facts t
  unfold iblk
  rw [View.read_apply]
  show (V m c main_v4 : S1x4096.Idx → EReal) _ = _
  rw [V_sqRow]
  refine Eq.trans (congrArg _ (funext fun a => Fin.ext ?_))
    (Cert.PairDist.Prefix.sqRow_apply (m ((c : Thread nD τ).loc main_arg1)) reducesTo_S4096x1024_S4096_d1 h_S_
      bcast_S4096_S4096x1_0 transposes_S4096x1_S1x4096_1_0 j)
  match a with
  | ⟨0, _⟩ => show win0_2.index t (0 : Fin 2) * 1 + 1 * 0 = 0; rw [e4]
  | ⟨1, _⟩ => show win0_2.index t (1 : Fin 2) * 4096 + 1 * j.val = j.val; rw [e5]; omega

/-! ## One block of the table -/

/-- For blocks that are rows `256·T …` of `x`, the whole prototype matrix and its row of squared lengths, the stored
    value at `(r, j)` is the distance entry `(256·T + r, j)`. -/
theorem block_entry (X : S16384x1024.Idx → EReal) (Q : S4096x1024.Idx → EReal)
    (x0 : Vec Ideal S256x1024 .f32) (x1 : Vec Ideal S4096x1024 .bf16) (x2 : Vec Ideal S1x4096 .f32)
    (r : Fin 256) (j : Fin 4096) (r' : Fin 16384)
    (h0 : ∀ k : Fin 1024, x0 (ix2 r k) = X (ix2 r' k))
    (h1 : ∀ k : Fin 1024, x1 (ix2 j k) = Q (ix2 j k))
    (h2 : x2 (ix2 0 j) = rowSq Q j) :
    k0_pay1 (F := Ideal) x0 x1 x2 (ix2 r j) = dist X Q (ix2 r' j) := by
  rw [Cert.PairDist.Body.pay_apply, dist_apply, h2]
  unfold distAt rowSq rowDot
  simp only [h0, h1]

/-! ## What a point writes back, the cover, the array after the run -/

/-- WHAT POINT `t` WRITES BACK is block `t` of the table of distances of the two arguments. -/
theorem flushed_eq (c : Dev nD) (t : Fin cfg0.N) :
    (dats m 0 c).flushed 3 t
      = ((cfg0.win 3).blk t).view.read (Elt Ideal)
          (dist (m ((c : Thread nD τ).loc main_arg0) : S16384x1024.Idx → EReal)
            (m ((c : Thread nD τ).loc main_arg1) : S4096x1024.Idx → EReal)) := by
  rw [Cert.KernelIdeal.Value.flushed3]
  unfold out0_3
  rw [View.canon_unit_zero hz]
  simp only [View.ld_unit_zero (S := S256x1024) hz, View.ld_unit_zero (S := S4096x1024) hz,
    View.ld_unit_zero (S := S1x4096) hz]
  obtain ⟨-, -, -, -, -, -, e6, e7⟩ := idx_facts t
  have hN : t.val < 64 := lt_of_lt_of_eq t.isLt N_0
  funext y
  have hy0 : (y 0).val < 256 := (y 0).isLt
  have hy1 : (y 1).val < 4096 := (y 1).isLt
  refine (congrArg (k0_pay1 (F := Ideal) (iblk m c 0 t) (iblk m c 1 t) (iblk m c 2 t)) (eq_ix2 (n0 := 256) (n1 := 4096) y)).trans ?_
  refine (block_entry _ _ (iblk m c 0 t) (iblk m c 1 t) (iblk m c 2 t) (y 0) (y 1) ⟨256 * t.val + (y 0).val, by omega⟩
    (fun k => xblk_apply m c t (y 0) k _ rfl) (fun k => pblk_apply m c t (y 1) k) (sqblk_apply m c t (y 1))).trans ?_
  rw [View.read_apply]
  refine congrArg _ (funext fun a => Fin.ext ?_)
  match a with
  | ⟨0, _⟩ => show 256 * t.val + (y 0).val = win0_3.index t (0 : Fin 2) * 256 + 1 * (y 0).val; rw [e6]; omega
  | ⟨1, _⟩ => show (y 1).val = win0_3.index t (1 : Fin 2) * 4096 + 1 * (y 1).val; rw [e7]; omega

/-- An index of the result is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v5).slice (win0_3.rect t)).set ↔ _
  rw [View.set_slice_whole, Rect.mem_set_unit]
  exact Iff.rfl

/-- Every entry of the result lies in the block of the point `row / 256`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 64 := N_0
  let t : Fin cfg0.N := ⟨(i 0).val / 256, by show (i 0).val / 256 < grid0.N; omega⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6]; show (i 0).val / 256 * 256 ≤ (i 0).val ∧ (i 0).val < (i 0).val / 256 * 256 + 256; omega
  | ⟨1, _⟩ =>
    show win0_3.index t (1 : Fin 2) * 4096 ≤ (i 1).val ∧ (i 1).val < win0_3.index t (1 : Fin 2) * 4096 + 4096
    rw [e7]; omega

/-- THE RESULT ARRAY after the run is the table of distances of the two arguments. -/
theorem final (c : Dev nD) :
    (dats m 0 c).arrAt 3 cfg0.N
      = dist (m ((c : Thread nD τ).loc main_arg0) : S16384x1024.Idx → EReal)
          (m ((c : Thread nD τ).loc main_arg1) : S4096x1024.Idx → EReal) :=
  (dats m 0 c).arrAt_eq_of_cover 3 _ (fun t _ => flushed_eq m c t) cover

/-- The kernel's run, read: the result at the table of distances, the arguments unchanged. -/
theorem run : θ_run defs (onTc (τ := τ) (main (F := Ideal))) ⟨m, fun _ => 0, ρ⟩ fun r => ∀ c : Dev nD,
      r.2.mem ((c : Thread nD τ).loc main_v5)
        = dist (m ((c : Thread nD τ).loc main_arg0) : S16384x1024.Idx → EReal)
            (m ((c : Thread nD τ).loc main_arg1) : S4096x1024.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PairDist.Kernel

end
-- ==== Proof.RefSide.lean ====
/-
  The reference program's result is the table of distances.  Read one operation at a time at the entry `(r, j)`: the
  two squared lengths are the host's row sums of the squares (each from the zero word, which is the number 0), spread
  along the rows and along the columns; the cross term is the host's product of `x` with the transposed prototype
  matrix, a sum over the 1024 columns; the result is `(‖x_r‖² + ‖p_j‖²) − 2·⟨x_r, p_j⟩`.
-/
import proofs.«111275_j34411277975719_2_alg».proof.Proof.Gen.ReferenceIdeal.Read
import proofs.«111275_j34411277975719_2_alg».proof.Proof.LibPairDist

noncomputable section

open scoped BigOperators

namespace Cert.PairDist.Ref

open Cert.ReferenceIdeal Cert.ReferenceIdeal.Read Idealize.ShloMosaic Idealize.ShloMosaic.ValueIdx

/-- The squared-length column of `x`, spread over the columns, reads row `r` of `x`. -/
theorem idx_x (r : Fin 16384) (j : Fin 4096) (k : Fin 1024) :
    idx_main_v1 (idx_main_v2 (idx_main_v7 (ix2 r j))) k = ix2 r k :=
  funext fun a => Fin.ext (by match a with | ⟨0, _⟩ => rfl | ⟨1, _⟩ => rfl)

/-- The squared-length row of the prototypes, spread over the rows, reads row `j` of the prototypes. -/
theorem idx_p (r : Fin 16384) (j : Fin 4096) (k : Fin 1024) :
    idx_main_v4 (idx_main_v6 (idx_main_v8 (ix2 r j))) k = ix2 j k :=
  funext fun a => Fin.ext (by match a with | ⟨0, _⟩ => rfl | ⟨1, _⟩ => rfl)

/-- The product's left factor at `(r, j)` and contraction index `k` is `x (r, k)` … -/
theorem idx_l (r : Fin 16384) (j : Fin 4096) (k : Fin 1024) : lidx_main_v5 (ix2 r j) k = ix2 r k :=
  funext fun a => Fin.ext (by match a with | ⟨0, _⟩ => rfl | ⟨1, _⟩ => rfl)

/-- … and its right factor is the prototype entry `(j, k)`. -/
theorem idx_r (r : Fin 16384) (j : Fin 4096) (k : Fin 1024) : ridx_main_v5 (ix2 r j) k = ix2 j k :=
  funext fun a => Fin.ext (by match a with | ⟨0, _⟩ => rfl | ⟨1, _⟩ => rfl)

/-- The reference's last stage is the table of distances of its two arguments. -/
theorem result_eq (x : (⟨S16384x1024, .f32⟩ : BufTy).Contents (Elt Ideal)) (p : (⟨S4096x1024, .f32⟩ : BufTy).Contents (Elt Ideal)) :
    val_main_v12 (F := Ideal) x p = dist x p := by
  funext i
  obtain ⟨r, j, rfl⟩ : ∃ (r : Fin 16384) (j : Fin 4096), i = ix2 r j := ⟨i 0, i 1, eq_ix2 i⟩
  rw [val_main_v12_apply, val_main_v9_apply, val_main_v11_apply, val_main_v7_apply, val_main_v8_apply,
    val_main_v10_apply, val_main_cst_1_apply, val_main_v2_apply, val_main_v6_apply, val_main_v1_apply,
    val_main_v4_apply, val_main_v5_apply, val_main_cst_apply, val_main_cst_0_apply, dist_apply]
  simp only [val_main_v0_apply, val_main_v3_apply, idx_x, idx_p, idx_l, idx_r, Ideal.mulf_def, Ideal.addf_def,
    Ideal.subf_def, Ideal.ofBits_def, Ideal.ofBits_zero_f32, zero_add]
  rfl

end Cert.PairDist.Ref

end
-- ==== Proof.lean ====
/-
  Pairwise squared Euclidean distances between the 16384 rows of `x` and the 4096 rows of the prototype matrix, both
  with 1024 columns: entry `(r, j)` of the result is  (‖x_r‖² + ‖p_j‖²) − 2·⟨x_r, p_j⟩.

  The kernel walks 64 blocks of 256 rows of `x`.  For each block it sums the squares along every row, adds the row of
  the prototypes' squared lengths (which the host summed beforehand and laid out as one row), and subtracts twice the
  product of the block with the transposed prototype matrix; that the prototypes and the block are narrowed to a
  shorter number format before the product changes nothing on the extended reals.  The reference forms the same three
  terms for the whole matrices at once.  Both sides group the terms the same way and carry the same word for the factor
  2, so entry by entry they are the same expression of the same sums: no law of arithmetic is used beyond `0 + s = s`
  for the sums' initial value, and the finiteness of the inputs is never needed.

  The three frames are the programs' runs with the result forgotten; the idealization rewrote no operation, so there is
  nothing to preserve; the value claim sets the kernel's run, read block by block and assembled over the cover of the
  rows by the 64 blocks, beside the reference's run read one operation at a time.
-/
import proofs.«111275_j34411277975719_2_alg».proof.Defs
import proofs.«111275_j34411277975719_2_alg».proof.Proof.Gen.Kernel
import proofs.«111275_j34411277975719_2_alg».proof.Proof.Gen.Kernel.Skeleton
import proofs.«111275_j34411277975719_2_alg».proof.Proof.Gen.Kernel.Launch
import proofs.«111275_j34411277975719_2_alg».proof.Proof.Gen.Kernel.Points
import proofs.«111275_j34411277975719_2_alg».proof.Proof.Gen.Kernel.Frame
import proofs.«111275_j34411277975719_2_alg».proof.Proof.Gen.KernelIdeal
import proofs.«111275_j34411277975719_2_alg».proof.Proof.Gen.KernelIdeal.Skeleton
import proofs.«111275_j34411277975719_2_alg».proof.Proof.Gen.KernelIdeal.Launch
import proofs.«111275_j34411277975719_2_alg».proof.Proof.Gen.KernelIdeal.Points
import proofs.«111275_j34411277975719_2_alg».proof.Proof.Gen.KernelIdeal.Frame
import proofs.«111275_j34411277975719_2_alg».proof.Proof.Gen.ReferenceIdeal
import proofs.«111275_j34411277975719_2_alg».proof.Proof.Gen.KernelIdeal.Value
import proofs.«111275_j34411277975719_2_alg».proof.Proof.Gen.ReferenceIdeal.Run
import proofs.«111275_j34411277975719_2_alg».proof.Proof.Gen.ReferenceIdeal.Read
import proofs.«111275_j34411277975719_2_alg».proof.Proof.Gen.Pre_finite_inputs
import proofs.«111275_j34411277975719_2_alg».proof.Proof.Blocks
import proofs.«111275_j34411277975719_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and the prototypes, both programs end with the table of distances of those two
    arrays: the kernel's result assembled from its 64 blocks, the reference's read one operation at a time. -/
theorem algebraic : Cert.algebraic_KernelIdeal_ReferenceIdeal := by
  intro m ρ m' ρ' _ hagree
  refine ⟨_, Cert.PairDist.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.PairDist.Ref.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
